-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x1024 .f32) (main_arg5 : FVec F S4096 .f32) (main_arg6 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4096x1024 .f32) (main_arg4 : FVec F S4096x1024 .f32) (main_arg5 : FVec F S4096 .f32) (main_arg6 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S16384x1024 : Shape := ⟨2, ![16384, 1024]⟩
abbrev S4096x1024 : Shape := ⟨2, ![4096, 1024]⟩
abbrev S4096 : Shape := ⟨1, ![4096]⟩
abbrev S1024x4096 : Shape := ⟨2, ![1024, 4096]⟩
abbrev S2048x4096 : Shape := ⟨2, ![2048, 4096]⟩
abbrev S1x4096 : Shape := ⟨2, ![1, 4096]⟩
abbrev S512x1024 : Shape := ⟨2, ![512, 1024]⟩
abbrev S512x2048 : Shape := ⟨2, ![512, 2048]⟩
abbrev S2048x1024 : Shape := ⟨2, ![2048, 1024]⟩
abbrev S1x1024 : Shape := ⟨2, ![1, 1024]⟩

abbrev nBuf : Space → Nat
  | .hbm => 16
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1024x4096, .f32⟩
  | .hbm, ⟨8, _⟩ => ⟨S1024x4096, .bf16⟩
  | .hbm, ⟨9, _⟩ => ⟨S1024x4096, .f32⟩
  | .hbm, ⟨10, _⟩ => ⟨S1024x4096, .bf16⟩
  | .hbm, ⟨11, _⟩ => ⟨S2048x4096, .bf16⟩
  | .hbm, ⟨12, _⟩ => ⟨S4096, .f32⟩
  | .hbm, ⟨13, _⟩ => ⟨S1x4096, .f32⟩
  | .hbm, ⟨14, _⟩ => ⟨S16384x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S2048x4096, .bf16⟩
  | .local _ .vmem, ⟨7, _⟩ => ⟨S1x4096, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S4096x1024_S1024x4096_1_0 : S4096x1024.Transposes [1, 0] S1024x4096
  bitsLt_bf16_f32 : FTy.bits .bf16 < FTy.bits .f32
  concatenates_S1024x4096_S1024x4096_S2048x4096_d0 : Shape.Concatenates [S1024x4096, S1024x4096] S2048x4096 0
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  concatenates_S512x1024_S512x1024_S512x2048_d1 : Shape.Concatenates [S512x1024, S512x1024] S512x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S2048x4096_o0_0_S2048x1024 : S2048x4096.Slices ![0, 0] S2048x1024
  slices_S1x4096_o0_0_S1x1024 : S1x4096.Slices ![0, 0] S1x1024
  broadcasts_S1x1024_S512x1024 : S1x1024.Broadcasts S512x1024
  slices_S2048x4096_o0_1024_S2048x1024 : S2048x4096.Slices ![0, 1024] S2048x1024
  slices_S1x4096_o0_1024_S1x1024 : S1x4096.Slices ![0, 1024] S1x1024
  slices_S2048x4096_o0_2048_S2048x1024 : S2048x4096.Slices ![0, 2048] S2048x1024
  slices_S1x4096_o0_2048_S1x1024 : S1x4096.Slices ![0, 2048] S1x1024
  slices_S2048x4096_o0_3072_S2048x1024 : S2048x4096.Slices ![0, 3072] S2048x1024
  slices_S1x4096_o0_3072_S1x1024 : S1x4096.Slices ![0, 3072] S1x1024
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S1024x4096 : Shape := ⟨2, ![1024, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1024x4096, .f32⟩
  | .hbm, ⟨8, _⟩ => ⟨S16384x4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S1024x4096, .f32⟩
  | .hbm, ⟨13, _⟩ => ⟨S16384x4096, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  bcast_S_S16384x1024 : S_.BroadcastsInDim S16384x1024 (![] : Fin 0 → Fin S16384x1024.rank)
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.CellSpec.lean ====
/-
  One step of an LSTM cell over a batch of 16384 rows with 1024 inputs and 1024 hidden units, as ONE function of
  the seven argument arrays, index by index, on the extended reals.

  For a batch row `b` and a gate row `r` of the 4096 stacked gate rows (input gate, forget gate, candidate, output
  gate, 1024 rows each) the pre-activation is

      z b r = (Σ_k x[b,k] · Wi[r,k] + bi[r]) + (Σ_k h[b,k] · Wh[r,k] + bh[r]).

  The new cell state is  c' = c · σ(z_forget) + σ(z_input) · tanh(z_candidate)  and the new hidden state is
  h' = tanh(c') · σ(z_output), with σ t = 1 / (1 + e^(-t)).

  Also here: the one law that joins the two arrangements of the pre-activation. A program that contracts the
  concatenated row [x[b,:], h[b,:]] against the stacked columns [Wi[r,:]; Wh[r,:]] and then adds the pre-added bias
  bi[r] + bh[r] computes (A + B) + (p + q) where the other computes (A + p) + (B + q): equal in any commutative
  monoid, so on the extended reals with no finiteness assumption.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.LstmCell

open Idealize.ShloMosaic Idealize.ShloMosaic.ValueIdx

/-- Activations and states: [16384, 1024]. -/
abbrev SAct : Shape := ⟨2, ![16384, 1024]⟩
/-- A weight matrix: [4096, 1024], gate rows by features. -/
abbrev SWt : Shape := ⟨2, ![4096, 1024]⟩
/-- A bias: [4096]. -/
abbrev SBias : Shape := ⟨1, ![4096]⟩

/-- Row `n` of gate `g` among the 4096 stacked gate rows: `1024 g + n`. -/
def gateRow (g : Fin 4) (n : Fin 1024) : Fin 4096 := ⟨1024 * g.val + n.val, by have := g.isLt; have := n.isLt; omega⟩

theorem gateRow_val (g : Fin 4) (n : Fin 1024) : (gateRow g n).val = 1024 * g.val + n.val := rfl

/-- The pre-activation of gate row `r` for batch row `b`: the input's and the hidden state's affine maps, added. -/
def preact (x h : SAct.Idx → EReal) (Wi Wh : SWt.Idx → EReal) (bi bh : SBias.Idx → EReal) (b : Fin 16384) (r : Fin 4096) : EReal :=
  ((∑ k : Fin 1024, x (ix2 b k) * Wi (ix2 r k)) + bi (ix1 r)) + ((∑ k : Fin 1024, h (ix2 b k) * Wh (ix2 r k)) + bh (ix1 r))

/-- The new cell state at batch row `b`, unit `n`. -/
def cellNext (x h cp : SAct.Idx → EReal) (Wi Wh : SWt.Idx → EReal) (bi bh : SBias.Idx → EReal) (b : Fin 16384) (n : Fin 1024) : EReal :=
  cp (ix2 b n) * Ideal.logistic (preact x h Wi Wh bi bh b (gateRow 1 n))
    + Ideal.logistic (preact x h Wi Wh bi bh b (gateRow 0 n)) * Ideal.tanh (preact x h Wi Wh bi bh b (gateRow 2 n))

/-- The new hidden state at batch row `b`, unit `n`. -/
def hidNext (x h cp : SAct.Idx → EReal) (Wi Wh : SWt.Idx → EReal) (bi bh : SBias.Idx → EReal) (b : Fin 16384) (n : Fin 1024) : EReal :=
  Ideal.tanh (cellNext x h cp Wi Wh bi bh b n) * Ideal.logistic (preact x h Wi Wh bi bh b (gateRow 3 n))

/-- The new cell state as a whole array. -/
def cellArr (x h cp : SAct.Idx → EReal) (Wi Wh : SWt.Idx → EReal) (bi bh : SBias.Idx → EReal) : SAct.Idx → EReal :=
  fun j => cellNext x h cp Wi Wh bi bh (j 0) (j 1)

/-- The new hidden state as a whole array. -/
def hidArr (x h cp : SAct.Idx → EReal) (Wi Wh : SWt.Idx → EReal) (bi bh : SBias.Idx → EReal) : SAct.Idx → EReal :=
  fun j => hidNext x h cp Wi Wh bi bh (j 0) (j 1)

theorem cellArr_ix2 (x h cp : SAct.Idx → EReal) (Wi Wh : SWt.Idx → EReal) (bi bh : SBias.Idx → EReal) (b : Fin 16384) (n : Fin 1024) :
    cellArr x h cp Wi Wh bi bh (ix2 b n) = cellNext x h cp Wi Wh bi bh b n := rfl

theorem hidArr_ix2 (x h cp : SAct.Idx → EReal) (Wi Wh : SWt.Idx → EReal) (bi bh : SBias.Idx → EReal) (b : Fin 16384) (n : Fin 1024) :
    hidArr x h cp Wi Wh bi bh (ix2 b n) = hidNext x h cp Wi Wh bi bh b n := rfl

/-- The pre-activation from the other arrangement: one contraction over the 2048 concatenated features, split at
    1024 into the input's and the hidden state's parts, plus the pre-added bias. -/
theorem preact_of_stacked (x h : SAct.Idx → EReal) (Wi Wh : SWt.Idx → EReal) (bi bh : SBias.Idx → EReal) (b : Fin 16384) (r : Fin 4096) :
    ((∑ k : Fin 1024, x (ix2 b k) * Wi (ix2 r k)) + ∑ k : Fin 1024, h (ix2 b k) * Wh (ix2 r k)) + (bi (ix1 r) + bh (ix1 r))
      = preact x h Wi Wh bi bh b r := by
  unfold preact
  exact add_add_add_comm _ _ _ _

/-- Feature `k` of the input among the 2048 concatenated features [input, hidden]. -/
def featLo (k : Fin 1024) : Fin 2048 := ⟨k.val, by have := k.isLt; omega⟩
/-- Feature `k` of the hidden state among the 2048 concatenated features: `1024 + k`. -/
def featHi (k : Fin 1024) : Fin 2048 := ⟨1024 + k.val, by have := k.isLt; omega⟩

theorem featLo_val (k : Fin 1024) : (featLo k).val = k.val := rfl
theorem featHi_val (k : Fin 1024) : (featHi k).val = 1024 + k.val := rfl

/-- A sum over the 2048 concatenated features is the sum over the input's plus the sum over the hidden state's. -/
theorem sum_feat_split {M : Type*} [AddCommMonoid M] (f : Fin 2048 → M) :
    ∑ k, f k = (∑ k : Fin 1024, f (featLo k)) + ∑ k : Fin 1024, f (featHi k) :=
  Fin.sum_univ_add (a := 1024) (b := 1024) f

/-- The logistic function, spelt out with the bit pattern of 1.0 in both places: `1 / (1 + e^(-t))`. -/
theorem logistic_spelt (t : EReal) :
    Ideal.div (Ideal.ofBits .f32 0x3F800000#32) (Ideal.ofBits .f32 0x3F800000#32 + Ideal.exp (-t)) = Ideal.logistic t := by
  rw [Ideal.ofBits_one_f32]
  rfl

end Cert.LstmCell

end
-- ==== Proof.RefSide.lean ====
/-
  The reference computes the LSTM step of CellSpec: its two results, read one operation at a time at an index, are
  `hidArr` and `cellArr` of its seven arguments.

  The reference forms all 4096 gate pre-activations of a batch row at once, `(x Wiᵀ + bi) + (h Whᵀ + bh)`; entry
  (b, r) of that array is `preact … b r`: the two products contract the feature axis, the transposes exchange a
  weight's two coordinates, and each bias is broadcast along the batch axis. The four gates are the column slices
  at offsets 0, 1024, 2048 and 3072, and the reference spells the logistic function as `1 / (1 + e^(-t))` with the
  constant 1.0, which is the number one.
-/
import proofs.«111819_j27144193310893_2_alg».proof.Proof.Gen.ReferenceIdeal.Read
import proofs.«111819_j27144193310893_2_alg».proof.Proof.CellSpec

noncomputable section

open scoped BigOperators

namespace Cert.ReferenceIdeal.RefValue

open Cert.ReferenceIdeal Cert.ReferenceIdeal.Gen Cert.ReferenceIdeal.Read Idealize.ShloMosaic Idealize.ShloMosaic.ValueIdx Cert.LstmCell

variable (x0 x1 x2 : (⟨S16384x1024, .f32⟩ : BufTy).Contents (Elt Ideal)) (x3 x4 : (⟨S4096x1024, .f32⟩ : BufTy).Contents (Elt Ideal))
  (x5 x6 : (⟨S4096, .f32⟩ : BufTy).Contents (Elt Ideal))

/-- Entry (b, r) of the array of all gate pre-activations. -/
theorem gates_at (b : Fin 16384) (r : Fin 4096) :
    val_main_v10 (F := Ideal) x0 x1 x3 x4 x5 x6 (ix2 b r) = preact x0 x1 x3 x4 x5 x6 b r := by
  have el1 : ∀ k : Fin 1024, lidx_main_v1 (ix2 b r) k = ix2 b k := fun k => funext fun a => by
    match a with | ⟨0, _⟩ => rfl | ⟨1, _⟩ => rfl
  have er1 : ∀ k : Fin 1024, idx_main_v0 (ridx_main_v1 (ix2 b r) k) = ix2 r k := fun k => funext fun a => by
    match a with | ⟨0, _⟩ => rfl | ⟨1, _⟩ => rfl
  have el6 : ∀ k : Fin 1024, lidx_main_v6 (ix2 b r) k = ix2 b k := fun k => funext fun a => by
    match a with | ⟨0, _⟩ => rfl | ⟨1, _⟩ => rfl
  have er6 : ∀ k : Fin 1024, idx_main_v5 (ridx_main_v6 (ix2 b r) k) = ix2 r k := fun k => funext fun a => by
    match a with | ⟨0, _⟩ => rfl | ⟨1, _⟩ => rfl
  have eb5 : idx_main_v2 (idx_main_v3 (ix2 b r)) = ix1 r := funext fun a => by
    match a with | ⟨0, _⟩ => rfl
  have eb6 : idx_main_v7 (idx_main_v8 (ix2 b r)) = ix1 r := funext fun a => by
    match a with | ⟨0, _⟩ => rfl
  rw [val_main_v10_apply, val_main_v4_apply, val_main_v9_apply, val_main_v1_apply, val_main_v6_apply, val_main_v3_apply,
    val_main_v8_apply, val_main_v2_apply, val_main_v7_apply]
  simp only [val_main_v0_apply, val_main_v5_apply, el1, er1, el6, er6, eb5, eb6]
  rfl

/-- The four column slices read the four gates' rows. -/
theorem slice0 (b : Fin 16384) (n : Fin 1024) : idx_main_v11 (ix2 b n) = ix2 b (gateRow 0 n) := funext fun a => by
  match a with
  | ⟨0, _⟩ => rfl
  | ⟨1, _⟩ => exact Fin.ext (by show n.val = 1024 * 0 + n.val; omega)
theorem slice1 (b : Fin 16384) (n : Fin 1024) : idx_main_v18 (ix2 b n) = ix2 b (gateRow 1 n) := funext fun a => by
  match a with
  | ⟨0, _⟩ => rfl
  | ⟨1, _⟩ => exact Fin.ext (by show 1024 + n.val = 1024 * 1 + n.val; omega)
theorem slice2 (b : Fin 16384) (n : Fin 1024) : idx_main_v25 (ix2 b n) = ix2 b (gateRow 2 n) := funext fun a => by
  match a with
  | ⟨0, _⟩ => rfl
  | ⟨1, _⟩ => exact Fin.ext (by show 2048 + n.val = 1024 * 2 + n.val; omega)
theorem slice3 (b : Fin 16384) (n : Fin 1024) : idx_main_v27 (ix2 b n) = ix2 b (gateRow 3 n) := funext fun a => by
  match a with
  | ⟨0, _⟩ => rfl
  | ⟨1, _⟩ => exact Fin.ext (by show 3072 + n.val = 1024 * 3 + n.val; omega)

/-- The reference's second result is the new cell state. -/
theorem cell_at (b : Fin 16384) (n : Fin 1024) :
    val_main_v36 (F := Ideal) x0 x1 x2 x3 x4 x5 x6 (ix2 b n) = cellNext x0 x1 x2 x3 x4 x5 x6 b n := by
  rw [val_main_v36_apply, val_main_v34_apply, val_main_v35_apply, val_main_v24_apply, val_main_v17_apply, val_main_v26_apply,
    val_main_v23_apply, val_main_v22_apply, val_main_v16_apply, val_main_v15_apply, val_main_v25_apply,
    val_main_v21_apply, val_main_v20_apply, val_main_v14_apply, val_main_v13_apply,
    val_main_v19_apply, val_main_v12_apply, val_main_v18_apply, val_main_v11_apply,
    val_main_cst_2_apply, val_main_cst_1_apply, val_main_cst_0_apply, val_main_cst_apply,
    slice0, slice1, slice2, gates_at, gates_at, gates_at]
  unfold cellNext
  simp only [Ideal.hostDivf_def, Ideal.hostUnary_exp_def, Ideal.hostUnary_tanh_def, Ideal.hostNegf_def, Ideal.negf_def,
    Ideal.addf_def, Ideal.mulf_def, Ideal.ofBits_def, logistic_spelt]

/-- The reference's first result is the new hidden state. -/
theorem hid_at (b : Fin 16384) (n : Fin 1024) :
    val_main_v38 (F := Ideal) x0 x1 x2 x3 x4 x5 x6 (ix2 b n) = hidNext x0 x1 x2 x3 x4 x5 x6 b n := by
  rw [val_main_v38_apply, val_main_v37_apply, cell_at, val_main_v33_apply, val_main_v32_apply, val_main_v31_apply,
    val_main_v30_apply, val_main_v29_apply, val_main_v28_apply, val_main_v27_apply,
    val_main_cst_4_apply, val_main_cst_3_apply, slice3, gates_at]
  unfold hidNext
  simp only [Ideal.hostDivf_def, Ideal.hostUnary_exp_def, Ideal.hostUnary_tanh_def, Ideal.hostNegf_def, Ideal.negf_def,
    Ideal.addf_def, Ideal.mulf_def, Ideal.ofBits_def, logistic_spelt]

theorem cell_eq : val_main_v36 (F := Ideal) x0 x1 x2 x3 x4 x5 x6 = cellArr x0 x1 x2 x3 x4 x5 x6 := by
  funext j
  obtain ⟨b, n, rfl⟩ : ∃ (b : Fin 16384) (n : Fin 1024), j = ix2 b n := ⟨j 0, j 1, eq_ix2 j⟩
  rw [cell_at, cellArr_ix2]

theorem hid_eq : val_main_v38 (F := Ideal) x0 x1 x2 x3 x4 x5 x6 = hidArr x0 x1 x2 x3 x4 x5 x6 := by
  funext j
  obtain ⟨b, n, rfl⟩ : ∃ (b : Fin 16384) (n : Fin 1024), j = ix2 b n := ⟨j 0, j 1, eq_ix2 j⟩
  rw [hid_at, hidArr_ix2]

end Cert.ReferenceIdeal.RefValue

end
-- ==== Proof.BlockCell.lean ====
/-
  One grid point of the kernel: what its body stores, read at one element, from the blocks it loads.

  The body sees a row block of 512 batch rows — `x0`, `x1`, `x2`: the blocks of the input, the previous hidden state
  and the previous cell state —, the whole stacked weight `w` [2048, 4096] (feature by gate row: rows 0..1023 the
  input's features, rows 1024..2047 the hidden state's) and the pre-added bias `bz` [1, 4096]. For gate offset `off`
  it contracts the concatenated row [x0[p,:], x1[p,:]] with columns `off .. off + 1023` of `w` on the matrix unit
  into a zero accumulator and adds the bias columns. Read at (p, q), with r = off + q:

      Σ_{k<2048} [x0, x1][p,k] · w[k,r] + bz[0,r]  =  (Σ_{k<1024} x0[p,k] · w[k,r] + Σ_{k<1024} x1[p,k] · w[1024+k,r]) + bz[0,r].

  The matrix product at the exact instance is the plain sum over the contracted axis; the roundings to bf16 are the
  identity there; the concatenation splits the sum at 1024.
-/
import proofs.«111819_j27144193310893_2_alg».proof.Proof.Gen.KernelIdeal.Skeleton
import proofs.«111819_j27144193310893_2_alg».proof.Proof.CellSpec
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.LstmCell

/-- The matrix unit's dimension numbers: [512, 2048] × [2048, 1024] → [512, 1024], contracting the 2048 features. -/
abbrev mm : DotDims S512x2048 S2048x1024 S512x1024 := dot_S512x2048_S2048x1024_S512x1024_1_0_0_1_n_n

theorem mm_lhs0 (i : S512x1024.Idx) (u : mm.contr.Idx) : (mm.lhsIdx i u 0).val = (i 0).val := by
  unfold DotDims.lhsIdx
  rw [dif_neg (show ¬(0 : Fin S512x2048.rank) ∈ mm.lhsBatch by decide), dif_pos (show (0 : Fin S512x2048.rank) ∈ mm.lhsNonContracting by decide)]
  rfl
theorem mm_lhs1 (i : S512x1024.Idx) (u : mm.contr.Idx) : (mm.lhsIdx i u 1).val = (u ⟨0, by decide⟩).val :=
  mm.lhsIdx_val_of_single rfl i u
theorem mm_rhs0 (i : S512x1024.Idx) (u : mm.contr.Idx) : (mm.rhsIdx i u 0).val = (u ⟨0, by decide⟩).val :=
  mm.rhsIdx_val_of_single rfl i u
theorem mm_rhs1 (i : S512x1024.Idx) (u : mm.contr.Idx) : (mm.rhsIdx i u 1).val = (i 1).val := by
  unfold DotDims.rhsIdx
  rw [dif_neg (show ¬(1 : Fin S2048x1024.rank) ∈ mm.rhsBatch by decide), dif_pos (show (1 : Fin S2048x1024.rank) ∈ mm.rhsNonContracting by decide)]
  rfl

/-- The matrix product into a zero accumulator, at (p, q): the sum over the 2048 features. -/
theorem matmul_at (A : FVec Ideal S512x2048 .bf16) (B : FVec Ideal S2048x1024 .bf16) (p : Fin 512) (q : Fin 1024) :
    matmul mm none A B (constant S512x1024 .f32 0x00000000#32) (ix2 p q) = ∑ k : Fin 2048, A (ix2 p k) * B (ix2 k q) := by
  refine (Ideal.matmul_constant_zero_apply mm none A B (ix2 p q)).trans ?_
  rw [← Equiv.sum_comp (contrEquiv1 mm 2048 rfl rfl).symm]
  refine Finset.sum_congr rfl fun k _ => ?_
  have hk := contrEquiv1_symm_val mm 2048 rfl rfl k
  have el : mm.lhsIdx (ix2 p q) ((contrEquiv1 mm 2048 rfl rfl).symm k) = ix2 p k := funext fun a => Fin.ext (by
    match a with
    | ⟨0, _⟩ => exact mm_lhs0 _ _
    | ⟨1, _⟩ => exact (mm_lhs1 _ _).trans hk)
  have er : mm.rhsIdx (ix2 p q) ((contrEquiv1 mm 2048 rfl rfl).symm k) = ix2 k q := funext fun a => Fin.ext (by
    match a with
    | ⟨0, _⟩ => exact (mm_rhs0 _ _).trans hk
    | ⟨1, _⟩ => exact mm_rhs1 _ _)
  rw [el, er]

variable (x0 x1 x2 : FVec Ideal S512x1024 .f32) (w : FVec Ideal S2048x4096 .bf16) (bz : FVec Ideal S1x4096 .f32)

/-- The concatenated row's first 1024 features are the input block's, -/
theorem concat_lo (p : Fin 512) (k : Fin 1024) : k0_pay1 (F := Ideal) x0 x1 (ix2 p (featLo k)) = x0 (ix2 p k) := by
  unfold k0_pay1
  exact concatenate_pair_apply_left (t := S512x2048) 1 _ _ concatenates_S512x1024_S512x1024_S512x2048_d1 (ix2 p (featLo k)) rfl (ix2 p k)
    (fun b => by match b with | ⟨0, _⟩ => rfl | ⟨1, _⟩ => rfl)

/-- and its last 1024 the hidden-state block's. -/
theorem concat_hi (p : Fin 512) (k : Fin 1024) : k0_pay1 (F := Ideal) x0 x1 (ix2 p (featHi k)) = x1 (ix2 p k) := by
  unfold k0_pay1
  exact concatenate_pair_apply_right (t := S512x2048) 1 _ _ concatenates_S512x1024_S512x1024_S512x2048_d1 (ix2 p (featHi k)) rfl rfl (ix2 p k)
    (fun b hb => by match b with | ⟨0, _⟩ => rfl | ⟨1, _⟩ => exact absurd rfl hb)
    (by show k.val + 1024 = 1024 + k.val; omega)

/-- Columns `off ..` of the stacked weight, at (k, q): the weight at (k, off + q). -/
theorem wcols_at (off : Nat) (hs : S2048x4096.Slices ![0, off] S2048x1024) (k : Fin 2048) (q : Fin 1024) (r : Fin 4096)
    (hr : r.val = off + q.val) :
    extractStridedSlice S2048x1024 ![0, off] (k0_pay2 w) hs (ix2 k q) = w (ix2 k r) := by
  unfold k0_pay2
  rw [shapeCast_self]
  exact extractStridedSlice_apply ![0, off] w hs (ix2 k q) (ix2 k r) (fun a => by
    match a with
    | ⟨0, _⟩ => show k.val = 0 + k.val; omega
    | ⟨1, _⟩ => exact hr)

/-- Columns `off ..` of the bias row broadcast over the 512 batch rows, at (p, q): the bias at (0, off + q). -/
theorem bcols_at (off : Nat) (hs : S1x4096.Slices ![0, off] S1x1024) (p : Fin 512) (q : Fin 1024) (r : Fin 4096)
    (hr : r.val = off + q.val) :
    broadcastTo S512x1024 (extractStridedSlice S1x1024 ![0, off] (k0_pay3 bz) hs) broadcasts_S1x1024_S512x1024 (ix2 p q)
      = bz (ix2 (0 : Fin 1) r) := by
  unfold k0_pay3
  rw [shapeCast_self]
  refine (broadcastTo_apply _ broadcasts_S1x1024_S512x1024 (ix2 p q) (ix2 (0 : Fin 1) q) (fun a => by
    match a with
    | ⟨0, _⟩ => show 0 = if (1 : Nat) = 1 then 0 else p.val; rw [if_pos rfl]
    | ⟨1, _⟩ => show q.val = if (1024 : Nat) = 1 then 0 else q.val; rw [if_neg (by decide)])).trans ?_
  exact extractStridedSlice_apply ![0, off] bz hs (ix2 (0 : Fin 1) q) (ix2 (0 : Fin 1) r) (fun a => by
    match a with
    | ⟨0, _⟩ => rfl
    | ⟨1, _⟩ => exact hr)

/-- The block's pre-activation for batch row `p` of the block and gate row `r`, from what the body loads. -/
def blockPre (p : Fin 512) (r : Fin 4096) : EReal :=
  ((∑ k : Fin 1024, x0 (ix2 p k) * w (ix2 (featLo k) r)) + ∑ k : Fin 1024, x1 (ix2 p k) * w (ix2 (featHi k) r)) + bz (ix2 (0 : Fin 1) r)

/-- One gate's matrix product plus bias, at (p, q), is the block's pre-activation of gate row `off + q`. -/
theorem gate_at (off : Nat) (hs : S2048x4096.Slices ![0, off] S2048x1024) (hs' : S1x4096.Slices ![0, off] S1x1024)
    (p : Fin 512) (q : Fin 1024) (r : Fin 4096) (hr : r.val = off + q.val) :
    matmul mm none (k0_pay1 (F := Ideal) x0 x1) (extractStridedSlice S2048x1024 ![0, off] (k0_pay2 w) hs) (constant S512x1024 .f32 0x00000000#32) (ix2 p q)
        + broadcastTo S512x1024 (extractStridedSlice S1x1024 ![0, off] (k0_pay3 bz) hs') broadcasts_S1x1024_S512x1024 (ix2 p q)
      = blockPre x0 x1 w bz p r := by
  rw [matmul_at, bcols_at bz off hs' p q r hr, sum_feat_split]
  unfold blockPre
  simp only [concat_lo, concat_hi, wcols_at w off hs _ q r hr]

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-- The value stored to the cell-state output, at (p, q):  c · σ(z_forget) + σ(z_input) · tanh(z_candidate). -/
theorem cell_payload_at (p : Fin 512) (q : Fin 1024) :
    k0_pay4 (F := Ideal) x0 x1 w bz x2 (ix2 p q)
      = x2 (ix2 p q) * Ideal.logistic (blockPre x0 x1 w bz p (gateRow 1 q))
        + Ideal.logistic (blockPre x0 x1 w bz p (gateRow 0 q)) * Ideal.tanh (blockPre x0 x1 w bz p (gateRow 2 q)) := by
  unfold k0_pay4
  simp only [addf_apply (s := S512x1024), mulf_apply (s := S512x1024), logistic_at, tanh_at]
  rw [gate_at x0 x1 w bz 1024 _ _ p q (gateRow 1 q) (by show 1024 * 1 + q.val = 1024 + q.val; omega),
    gate_at x0 x1 w bz 0 _ _ p q (gateRow 0 q) (by show 1024 * 0 + q.val = 0 + q.val; omega),
    gate_at x0 x1 w bz 2048 _ _ p q (gateRow 2 q) (by show 1024 * 2 + q.val = 2048 + q.val; omega)]

/-- The value stored to the hidden-state output, at (p, q):  tanh(c') · σ(z_output). -/
theorem hid_payload_at (p : Fin 512) (q : Fin 1024) :
    k0_pay5 (F := Ideal) x0 x1 w bz x2 (ix2 p q)
      = Ideal.tanh (k0_pay4 (F := Ideal) x0 x1 w bz x2 (ix2 p q)) * Ideal.logistic (blockPre x0 x1 w bz p (gateRow 3 q)) := by
  unfold k0_pay5
  simp only [addf_apply (s := S512x1024), mulf_apply (s := S512x1024), logistic_at, tanh_at]
  rw [gate_at x0 x1 w bz 3072 _ _ p q (gateRow 3 q) (by show 1024 * 3 + q.val = 3072 + q.val; omega)]

/-! ## The block's values are the cell's, once the loaded blocks are read off the argument arrays -/

section Bridge

variable (X H C : SAct.Idx → EReal) (Wi Wh : SWt.Idx → EReal) (bi bh : SBias.Idx → EReal) (rowOf : Fin 512 → Fin 16384)
  (hx0 : ∀ p k, x0 (ix2 p k) = X (ix2 (rowOf p) k)) (hx1 : ∀ p k, x1 (ix2 p k) = H (ix2 (rowOf p) k))
  (hx2 : ∀ p k, x2 (ix2 p k) = C (ix2 (rowOf p) k))
  (hwlo : ∀ k r, w (ix2 (featLo k) r) = Wi (ix2 r k)) (hwhi : ∀ k r, w (ix2 (featHi k) r) = Wh (ix2 r k))
  (hb : ∀ r, bz (ix2 (0 : Fin 1) r) = bi (ix1 r) + bh (ix1 r))

include hx0 hx1 hwlo hwhi hb in
/-- The block's pre-activation is the cell's: the stacked contraction plus the pre-added bias, regrouped. -/
theorem blockPre_eq (p : Fin 512) (r : Fin 4096) : blockPre x0 x1 w bz p r = preact X H Wi Wh bi bh (rowOf p) r := by
  unfold blockPre
  simp only [hx0, hx1, hwlo, hwhi, hb]
  exact preact_of_stacked X H Wi Wh bi bh (rowOf p) r

include hx0 hx1 hx2 hwlo hwhi hb in
theorem cell_block (p : Fin 512) (q : Fin 1024) :
    k0_pay4 (F := Ideal) x0 x1 w bz x2 (ix2 p q) = cellNext X H C Wi Wh bi bh (rowOf p) q := by
  rw [cell_payload_at, blockPre_eq x0 x1 w bz X H Wi Wh bi bh rowOf hx0 hx1 hwlo hwhi hb,
    blockPre_eq x0 x1 w bz X H Wi Wh bi bh rowOf hx0 hx1 hwlo hwhi hb,
    blockPre_eq x0 x1 w bz X H Wi Wh bi bh rowOf hx0 hx1 hwlo hwhi hb, hx2]
  rfl

include hx0 hx1 hx2 hwlo hwhi hb in
theorem hid_block (p : Fin 512) (q : Fin 1024) :
    k0_pay5 (F := Ideal) x0 x1 w bz x2 (ix2 p q) = hidNext X H C Wi Wh bi bh (rowOf p) q := by
  rw [hid_payload_at, cell_block x0 x1 x2 w bz X H C Wi Wh bi bh rowOf hx0 hx1 hx2 hwlo hwhi hb,
    blockPre_eq x0 x1 w bz X H Wi Wh bi bh rowOf hx0 hx1 hwlo hwhi hb]
  rfl

end Bridge

end Cert.KernelIdeal.BlockValue

end
-- ==== Proof.HostPrefix.lean ====
/-
  What the kernel's two computed operands hold when the region is entered, read at one element.

  Before the region the program stacks the two weight matrices, transposed and rounded to bf16 (the identity at the
  exact instance), along the feature axis — so row k < 1024 of the stacked [2048, 4096] array at gate row r is
  Wi[r, k], and row 1024 + k is Wh[r, k] — and adds the two biases and reshapes the sum to one row [1, 4096], whose
  entry (0, r) is bi[r] + bh[r].
-/
import proofs.«111819_j27144193310893_2_alg».proof.Proof.Gen.KernelIdeal.Frame
import proofs.«111819_j27144193310893_2_alg».proof.Proof.CellSpec
import Idealize.ShloMosaic.Lib.Pipeline.Value
import Idealize.ShloMosaic.Lib.ValueIdx
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.ValueIdx Idealize.ShloMosaic.StableHlo Cert.LstmCell

variable (m : (ℓ : Loc nD τ sig) → Buf (Elt Ideal) ℓ) (c : Dev nD)

/-- The stacked weight as the region finds it: the two transposed weights, one above the other. -/
theorem stacked_eq :
    (V m c main_v4 : S2048x4096.Idx → EReal)
      = concatenate S2048x4096 0
          [⟨S1024x4096, truncf (F := Ideal) .bf16 (transpose S1024x4096 [1, 0] (m ((c : Thread nD τ).loc main_arg3)) transposes_S4096x1024_S1024x4096_1_0) bitsLt_bf16_f32⟩,
           ⟨S1024x4096, truncf (F := Ideal) .bf16 (transpose S1024x4096 [1, 0] (m ((c : Thread nD τ).loc main_arg4)) transposes_S4096x1024_S1024x4096_1_0) bitsLt_bf16_f32⟩]
          concatenates_S1024x4096_S1024x4096_S2048x4096_d0 := by
  dsimp only [Gen.V, Gen.hostOps0]
  after_results

/-- The bias row as the region finds it: the two biases added, as one row. -/
theorem biasrow_eq :
    (V m c main_v6 : S1x4096.Idx → EReal)
      = shapeCast S1x4096 (addf (F := Ideal) (s := S4096) (φ := .f32) (m ((c : Thread nD τ).loc main_arg5)) (m ((c : Thread nD τ).loc main_arg6))) shapeCasts_S4096_S1x4096 := by
  dsimp only [Gen.V, Gen.hostOps0]
  after_results
  rfl

/-- Row k < 1024 of the stacked weight, at gate row r, is the input weight at (r, k). -/
theorem stacked_lo (Wi : S4096x1024.Idx → EReal) (hWi : Wi = m ((c : Thread nD τ).loc main_arg3)) (k : Fin 1024) (r : Fin 4096) :
    (V m c main_v4 : S2048x4096.Idx → EReal) (ix2 (featLo k) r) = Wi (ix2 r k) := by
  subst hWi
  rw [stacked_eq]
  refine (concatenate_pair_apply_left (t := S2048x4096) 0 _ _ concatenates_S1024x4096_S1024x4096_S2048x4096_d0 (ix2 (featLo k) r) rfl (ix2 k r)
    (fun b => by match b with | ⟨0, _⟩ => rfl | ⟨1, _⟩ => rfl)).trans ?_
  exact transpose_apply [1, 0] _ transposes_S4096x1024_S1024x4096_1_0 (ix2 k r) (ix2 r k) (fun b => match b with
    | ⟨0, _⟩ => rfl
    | ⟨1, _⟩ => rfl)

/-- Row 1024 + k of the stacked weight, at gate row r, is the hidden weight at (r, k). -/
theorem stacked_hi (Wh : S4096x1024.Idx → EReal) (hWh : Wh = m ((c : Thread nD τ).loc main_arg4)) (k : Fin 1024) (r : Fin 4096) :
    (V m c main_v4 : S2048x4096.Idx → EReal) (ix2 (featHi k) r) = Wh (ix2 r k) := by
  subst hWh
  rw [stacked_eq]
  refine (concatenate_pair_apply_right (t := S2048x4096) 0 _ _ concatenates_S1024x4096_S1024x4096_S2048x4096_d0 (ix2 (featHi k) r) rfl rfl (ix2 k r)
    (fun b hb => by match b with | ⟨0, _⟩ => exact absurd rfl hb | ⟨1, _⟩ => rfl)
    (by show k.val + 1024 = 1024 + k.val; omega)).trans ?_
  exact transpose_apply [1, 0] _ transposes_S4096x1024_S1024x4096_1_0 (ix2 k r) (ix2 r k) (fun b => match b with
    | ⟨0, _⟩ => rfl
    | ⟨1, _⟩ => rfl)

/-- Entry (0, r) of the bias row is the sum of the two biases at r. -/
theorem biasrow_at (bi bh : S4096.Idx → EReal) (hbi : bi = m ((c : Thread nD τ).loc main_arg5)) (hbh : bh = m ((c : Thread nD τ).loc main_arg6))
    (r : Fin 4096) :
    (V m c main_v6 : S1x4096.Idx → EReal) (ix2 (0 : Fin 1) r) = bi (ix1 r) + bh (ix1 r) := by
  subst hbi hbh
  rw [biasrow_eq]
  refine (shapeCast_apply _ shapeCasts_S4096_S1x4096 (ix2 (0 : Fin 1) r) (ix1 r) ?_).trans rfl
  rw [Shape.rowMajor_val_one, Shape.rowMajor_val_two]
  show r.val = 0 * 4096 + r.val
  omega

end Cert.KernelIdeal.HostPrefix

end
-- ==== Proof.KernelSide.lean ====
/-
  The kernel's two result arrays after the run are the LSTM step of CellSpec of its seven arguments.

  The grid has 32 points; point t handles batch rows 512 t .. 512 t + 511: the three activation windows and the two
  output windows sit at block (t, 0) of their [16384, 1024] arrays, the stacked weight and the bias row are whole
  (block (0, 0)). So element (p, k) of an activation block at point t is element (512 t + p, k) of its array, and
  what point t writes back to an output is block t of one whole-array function; the 32 blocks tile the array
  (row i lies in block i / 512), hence each output array ends as that function.
-/
import proofs.«111819_j27144193310893_2_alg».proof.Proof.Gen.KernelIdeal.Value
import proofs.«111819_j27144193310893_2_alg».proof.Proof.BlockCell
import proofs.«111819_j27144193310893_2_alg».proof.Proof.HostPrefix
import Idealize.ShloMosaic.Lib.Pipeline.Value
import Idealize.ShloMosaic.Lib.Tactic

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.LstmCell Cert.KernelIdeal.BlockValue Cert.KernelIdeal.HostPrefix

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 grid points: the row-blocked windows are at block (t, 0), the whole ones at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Batch row `p` of the block at grid point `t`: row `512 t + p` of the array. -/
def tileRow (t : Fin 32) (p : Fin 512) : Fin 16384 := ⟨512 * t.val + p.val, by have := t.isLt; have := p.isLt; omega⟩

/-! ## The loaded blocks, read off the arrays -/

/-- The input's block at point t. -/
theorem xblk_at (c : Dev nD) (t : Fin cfg0.N) (X : S16384x1024.Idx → EReal) (hX : X = m ((c : Thread nD τ).loc main_arg0))
    (p : Fin 512) (k : Fin 1024) :
    (iblk m c 0 t : S512x1024.Idx → EReal) (ix2 p k) = X (ix2 (tileRow (t.cast N_0) p) k) := by
  subst hX
  obtain ⟨e0, e1, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

/-- The previous hidden state's block at point t. -/
theorem hblk_at (c : Dev nD) (t : Fin cfg0.N) (H : S16384x1024.Idx → EReal) (hH : H = m ((c : Thread nD τ).loc main_arg1))
    (p : Fin 512) (k : Fin 1024) :
    (iblk m c 1 t : S512x1024.Idx → EReal) (ix2 p k) = H (ix2 (tileRow (t.cast N_0) p) k) := by
  subst hH
  obtain ⟨-, -, e0, e1, -⟩ := idx_facts t
  unfold iblk
  rw [View.read_apply]
  show V m c main_arg1 _ = m (c.tc.loc main_arg1) _
  rw [V_main_arg1]
  refine congrArg _ (funext fun a => Fin.ext ?_)
  match a with
  | ⟨0, _⟩ => show win0_1.index t (0 : Fin 2) * 512 + 1 * p.val = 512 * t.val + p.val; rw [e0]; omega
  | ⟨1, _⟩ => show win0_1.index t (1 : Fin 2) * 1024 + 1 * k.val = k.val; rw [e1]; omega

/-- The previous cell state's block at point t. -/
theorem cblk_at (c : Dev nD) (t : Fin cfg0.N) (C : S16384x1024.Idx → EReal) (hC : C = m ((c : Thread nD τ).loc main_arg2))
    (p : Fin 512) (k : Fin 1024) :
    (iblk m c 2 t : S512x1024.Idx → EReal) (ix2 p k) = C (ix2 (tileRow (t.cast N_0) p) k) := by
  subst hC
  obtain ⟨-, -, -, -, e0, e1, -⟩ := idx_facts t
  unfold iblk
  rw [View.read_apply]
  show V m c main_arg2 _ = m (c.tc.loc main_arg2) _
  rw [V_main_arg2]
  refine congrArg _ (funext fun a => Fin.ext ?_)
  match a with
  | ⟨0, _⟩ => show win0_2.index t (0 : Fin 2) * 512 + 1 * p.val = 512 * t.val + p.val; rw [e0]; omega
  | ⟨1, _⟩ => show win0_2.index t (1 : Fin 2) * 1024 + 1 * k.val = k.val; rw [e1]; omega

/-- The stacked weight's block is the whole stacked weight. -/
theorem wblk_at (c : Dev nD) (t : Fin cfg0.N) (k : Fin 2048) (r : Fin 4096) :
    (iblk m c 3 t : S2048x4096.Idx → EReal) (ix2 k r) = (V m c main_v4 : S2048x4096.Idx → EReal) (ix2 k r) := by
  obtain ⟨-, -, -, -, -, -, e0, e1, -⟩ := idx_facts t
  unfold iblk
  rw [View.read_apply]
  show V m c main_v4 _ = V m c main_v4 _
  refine congrArg _ (funext fun a => Fin.ext ?_)
  match a with
  | ⟨0, _⟩ => show win0_3.index t (0 : Fin 2) * 2048 + 1 * k.val = k.val; rw [e0]; omega
  | ⟨1, _⟩ => show win0_3.index t (1 : Fin 2) * 4096 + 1 * r.val = r.val; rw [e1]; omega

/-- The bias row's block is the whole bias row. -/
theorem bblk_at (c : Dev nD) (t : Fin cfg0.N) (r : Fin 4096) :
    (iblk m c 4 t : S1x4096.Idx → EReal) (ix2 (0 : Fin 1) r) = (V m c main_v6 : S1x4096.Idx → EReal) (ix2 (0 : Fin 1) r) := by
  obtain ⟨-, -, -, -, -, -, -, -, e0, e1, -⟩ := idx_facts t
  unfold iblk
  rw [View.read_apply]
  show V m c main_v6 _ = V m c main_v6 _
  refine congrArg _ (funext fun a => Fin.ext ?_)
  match a with
  | ⟨0, _⟩ => show win0_4.index t (0 : Fin 2) * 1 + 1 * 0 = 0; rw [e0]
  | ⟨1, _⟩ => show win0_4.index t (1 : Fin 2) * 4096 + 1 * r.val = r.val; rw [e1]; omega

/-! ## What each point writes back -/

/-- The new hidden state, as one function of core c's argument arrays. -/
abbrev hidOf (c : Dev nD) : S16384x1024.Idx → EReal :=
  hidArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The new cell state, as one function of core c's argument arrays. -/
abbrev cellOf (c : Dev nD) : S16384x1024.Idx → EReal :=
  cellArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- Point t writes block t of the new hidden state to the first output. -/
theorem flushed_hid (c : Dev nD) (t : Fin cfg0.N) :
    (dats m 0 c).flushed 5 t = ((cfg0.win 5).blk t).view.read (Elt Ideal) (hidOf m c) := by
  rw [Value.flushed5]
  unfold out0_5
  rw [View.canon_unit_zero hz]
  simp only [View.ld_unit_zero (S := S512x1024) hz, View.ld_unit_zero (S := S2048x4096) hz, View.ld_unit_zero (S := S1x4096) hz]
  funext j
  obtain ⟨p, q, rfl⟩ : ∃ (p : Fin 512) (q : Fin 1024), j = ix2 p q := ⟨j 0, j 1, eq_ix2 j⟩
  obtain ⟨-, -, -, -, -, -, -, -, -, -, e0, e1, -⟩ := idx_facts t
  have he : ((cfg0.win 5).blk t).view.emb (ix2 p q) = ix2 (tileRow (t.cast N_0) p) q := funext fun a => Fin.ext (by
    match a with
    | ⟨0, _⟩ => show win0_5.index t (0 : Fin 2) * 512 + 1 * p.val = 512 * t.val + p.val; rw [e0]; omega
    | ⟨1, _⟩ => show win0_5.index t (1 : Fin 2) * 1024 + 1 * q.val = q.val; rw [e1]; omega)
  show k0_pay5 (F := Ideal) (iblk m c 0 t) (iblk m c 1 t) (iblk m c 3 t) (iblk m c 4 t) (iblk m c 2 t) (ix2 p q)
    = hidOf m c (((cfg0.win 5).blk t).view.emb (ix2 p q))
  rw [he]
  exact hid_block (iblk m c 0 t) (iblk m c 1 t) (iblk m c 2 t) (iblk m c 3 t) (iblk m c 4 t) _ _ _ _ _ _ _ (tileRow (t.cast N_0))
    (xblk_at m c t _ rfl) (hblk_at m c t _ rfl) (cblk_at m c t _ rfl)
    (fun k r => (wblk_at m c t (featLo k) r).trans (stacked_lo m c _ rfl k r))
    (fun k r => (wblk_at m c t (featHi k) r).trans (stacked_hi m c _ rfl k r))
    (fun r => (bblk_at m c t r).trans (biasrow_at m c _ _ rfl rfl r)) p q

/-- Point t writes block t of the new cell state to the second output. -/
theorem flushed_cell (c : Dev nD) (t : Fin cfg0.N) :
    (dats m 0 c).flushed 6 t = ((cfg0.win 6).blk t).view.read (Elt Ideal) (cellOf m c) := by
  rw [Value.flushed6]
  unfold out0_6
  rw [View.canon_unit_zero hz]
  simp only [View.ld_unit_zero (S := S512x1024) hz, View.ld_unit_zero (S := S2048x4096) hz, View.ld_unit_zero (S := S1x4096) hz]
  funext j
  obtain ⟨p, q, rfl⟩ : ∃ (p : Fin 512) (q : Fin 1024), j = ix2 p q := ⟨j 0, j 1, eq_ix2 j⟩
  obtain ⟨-, -, -, -, -, -, -, -, -, -, -, -, e0, e1⟩ := idx_facts t
  have he : ((cfg0.win 6).blk t).view.emb (ix2 p q) = ix2 (tileRow (t.cast N_0) p) q := funext fun a => Fin.ext (by
    match a with
    | ⟨0, _⟩ => show win0_6.index t (0 : Fin 2) * 512 + 1 * p.val = 512 * t.val + p.val; rw [e0]; omega
    | ⟨1, _⟩ => show win0_6.index t (1 : Fin 2) * 1024 + 1 * q.val = q.val; rw [e1]; omega)
  show k0_pay4 (F := Ideal) (iblk m c 0 t) (iblk m c 1 t) (iblk m c 3 t) (iblk m c 4 t) (iblk m c 2 t) (ix2 p q)
    = cellOf m c (((cfg0.win 6).blk t).view.emb (ix2 p q))
  rw [he]
  exact cell_block (iblk m c 0 t) (iblk m c 1 t) (iblk m c 2 t) (iblk m c 3 t) (iblk m c 4 t) _ _ _ _ _ _ _ (tileRow (t.cast N_0))
    (xblk_at m c t _ rfl) (hblk_at m c t _ rfl) (cblk_at m c t _ rfl)
    (fun k r => (wblk_at m c t (featLo k) r).trans (stacked_lo m c _ rfl k r))
    (fun k r => (wblk_at m c t (featHi k) r).trans (stacked_hi m c _ rfl k r))
    (fun r => (bblk_at m c t r).trans (biasrow_at m c _ _ rfl rfl r)) p q

/-! ## The 32 blocks tile each output array -/

/-- An index of the first output is in point t's block iff each coordinate is in the block's range on its axis. -/
theorem mem_blk_hid (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v7_0).slice (win0_5.rect t)).set ↔ _
  rw [View.set_slice_whole, Rect.mem_set_unit]
  exact Iff.rfl

/-- The same for the second output. -/
theorem mem_blk_cell (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v7_1).slice (win0_6.rect t)).set ↔ _
  rw [View.set_slice_whole, Rect.mem_set_unit]
  exact Iff.rfl

/-- Row i of the first output lies in the block of point i / 512. -/
theorem cover_hid (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, -, -, -, -, e0, e1, -⟩ := idx_facts t
  refine ⟨t, flush0_5 t, ?_⟩
  rw [mem_blk_hid]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 1024 ≤ (i 1).val ∧ (i 1).val < win0_5.index t (1 : Fin 2) * 1024 + 1024
    rw [e1]; omega

/-- Row i of the second output lies in the block of point i / 512. -/
theorem cover_cell (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, -, -, -, -, -, -, e0, e1⟩ := idx_facts t
  refine ⟨t, flush0_6 t, ?_⟩
  rw [mem_blk_cell]
  intro a
  match a with
  | ⟨0, _⟩ =>
    show win0_6.index t (0 : Fin 2) * 512 ≤ (i 0).val ∧ (i 0).val < win0_6.index t (0 : Fin 2) * 512 + 512
    rw [e0, ht]; omega
  | ⟨1, _⟩ =>
    show win0_6.index t (1 : Fin 2) * 1024 ≤ (i 1).val ∧ (i 1).val < win0_6.index t (1 : Fin 2) * 1024 + 1024
    rw [e1]; omega

/-- The first output array after the run is the new hidden state. -/
theorem final_hid (c : Dev nD) : (dats m 0 c).arrAt 5 cfg0.N = hidOf m c :=
  (dats m 0 c).arrAt_eq_of_cover 5 (hidOf m c) (fun t _ => flushed_hid m c t) cover_hid

/-- The second output array after the run is the new cell state. -/
theorem final_cell (c : Dev nD) : (dats m 0 c).arrAt 6 cfg0.N = cellOf m c :=
  (dats m 0 c).arrAt_eq_of_cover 6 (cellOf m c) (fun t _ => flushed_cell m c t) cover_cell

/-- Every weakly fair execution of the kernel's program ends with the two results at the new hidden and cell
    states of the arguments, the arguments unchanged. -/
theorem run : θ_run defs (onTc (τ := τ) (main (F := Ideal))) ⟨m, fun _ => 0, ρ⟩ fun r => ∀ c : Dev nD,
      r.2.mem ((c : Thread nD τ).loc main_v7_0) = hidOf m c
      ∧ r.2.mem ((c : Thread nD τ).loc main_v7_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hid m c), (h c).2.1.trans (final_cell m c), (h c).2.2⟩)
    (Value.run_blocks m ρ)

end Cert.KernelIdeal.ArrayValue

end
-- ==== Proof.lean ====
/-
  The kernel and its reference compute one step of an LSTM cell over 16384 batch rows, 1024 inputs and 1024 hidden
  units: from the input x, the previous hidden state h and cell state c, the weights Wi, Wh [4096, 1024] and the
  biases bi, bh [4096], with the four gates' rows stacked (input, forget, candidate, output),

      z   = (x Wiᵀ + bi) + (h Whᵀ + bh),
      c'  = c · σ(z_forget) + σ(z_input) · tanh(z_candidate),
      h'  = tanh(c') · σ(z_output).

  The reference computes z as written. The kernel works on row blocks of 512 batch rows: it concatenates the rows of
  x and h, contracts them with the two transposed weights stacked along the feature axis (rounded to bf16, which
  changes nothing on the extended reals) and adds the pre-added bias bi + bh. On the extended reals the two agree
  because a sum over the 2048 concatenated features is the sum over the first 1024 plus the sum over the last 1024,
  and (A + B) + (p + q) = (A + p) + (B + q) — commutativity and associativity of addition only, so the finiteness
  of the inputs is never used. The logistic function of the kernel is the expression 1 / (1 + e^(-t)) the reference
  spells, and both apply the same tanh.

  The modules: CellSpec (the step as one function of the arguments, index by index, and the regrouping law),
  RefSide (the reference's results are that function), BlockCell (what one grid point stores, from its loaded
  blocks), HostPrefix (the stacked weight and the bias row the kernel is given), KernelSide (the 32 written blocks
  tile each output array, which therefore ends as that function). The idealized kernel rewrites nothing of the
  kernel, so it preserves it trivially.
-/
import proofs.«111819_j27144193310893_2_alg».proof.Defs
import proofs.«111819_j27144193310893_2_alg».proof.Proof.Gen.Kernel
import proofs.«111819_j27144193310893_2_alg».proof.Proof.Gen.Kernel.Skeleton
import proofs.«111819_j27144193310893_2_alg».proof.Proof.Gen.Kernel.Launch
import proofs.«111819_j27144193310893_2_alg».proof.Proof.Gen.Kernel.Points
import proofs.«111819_j27144193310893_2_alg».proof.Proof.Gen.Kernel.Frame
import proofs.«111819_j27144193310893_2_alg».proof.Proof.Gen.KernelIdeal
import proofs.«111819_j27144193310893_2_alg».proof.Proof.Gen.KernelIdeal.Skeleton
import proofs.«111819_j27144193310893_2_alg».proof.Proof.Gen.KernelIdeal.Launch
import proofs.«111819_j27144193310893_2_alg».proof.Proof.Gen.KernelIdeal.Points
import proofs.«111819_j27144193310893_2_alg».proof.Proof.Gen.KernelIdeal.Frame
import proofs.«111819_j27144193310893_2_alg».proof.Proof.Gen.ReferenceIdeal
import proofs.«111819_j27144193310893_2_alg».proof.Proof.Gen.Pre_finite_inputs
import proofs.«111819_j27144193310893_2_alg».proof.Proof.Gen.KernelIdeal.Value
import proofs.«111819_j27144193310893_2_alg».proof.Proof.Gen.ReferenceIdeal.Run
import proofs.«111819_j27144193310893_2_alg».proof.Proof.Gen.ReferenceIdeal.Read
import proofs.«111819_j27144193310893_2_alg».proof.Proof.RefSide
import proofs.«111819_j27144193310893_2_alg».proof.Proof.KernelSide
import Idealize.ShloMosaic.Adequacy
import Idealize.ShloMosaic.Init

noncomputable section

namespace Cert.Proof

open Idealize.ShloMosaic Idealize.SL.Sem

/-- The kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- On the extended reals both programs end with the new hidden state and the new cell state of the arguments. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v38_eq, Cert.ReferenceIdeal.RefValue.hid_eq, a0, a1, a2, a3, a4, a5, a6]
  · obtain ⟨a0, a1, a2, a3, a4, a5, a6⟩ := hagree c
    rw [Cert.ReferenceIdeal.Read.val_main_v36_eq, Cert.ReferenceIdeal.RefValue.cell_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
